-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4x4096x4096 .f32) (main_arg1 : FVec F S4096x4096 .f32) (main_arg2 : FVec F S4096 .f32) (main_arg3 : FVec F S4096 .f32) (main_arg4 : FVec F S4096 .f32) (main_arg5 : FVec F S4096 .f32) (main_arg6 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩
abbrev S64x4096 : Shape := ⟨2, ![64, 4096]⟩
abbrev S256x4096 : Shape := ⟨2, ![256, 4096]⟩
abbrev S64x256 : Shape := ⟨2, ![64, 256]⟩
abbrev S1x256 : Shape := ⟨2, ![1, 256]⟩
abbrev S64 : Shape := ⟨1, ![64]⟩
abbrev S64x1 : Shape := ⟨2, ![64, 1]⟩

abbrev nBuf : Space → Nat
  | .hbm => 17
  | .vmem => 10
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S16384x4096, .f32⟩
  | .hbm, ⟨8, _⟩ => ⟨S4096x4096, .f32⟩
  | .hbm, ⟨9, _⟩ => ⟨S4096x4096, .bf16⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S16384x4096, .f32⟩
  | .hbm, ⟨16, _⟩ => ⟨S4x4096x4096, .f32⟩
  | .local _ .vmem, ⟨0, _⟩ => ⟨S64x4096, .f32⟩
  | .local _ .vmem, ⟨1, _⟩ => ⟨S64x4096, .f32⟩
  | .local _ .vmem, ⟨2, _⟩ => ⟨S4096x4096, .bf16⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S64x4096, .f32⟩
  | .local _ .vmem, ⟨9, _⟩ => ⟨S64x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x4096x4096_S16384x4096 : S4x4096x4096.ShapeCasts S16384x4096
  bitsLt_bf16_f32 : FTy.bits .bf16 < FTy.bits .f32
  shapeCasts_S4096_S1x4096 : S4096.ShapeCasts S1x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  inb_S4096x4096_S256x4096_0_0 : ∀ a, (![0, 0] : Fin 2 → Nat) a + S256x4096.size a ≤ S4096x4096.size a
  h_S256x4096 : 0 < S256x4096.numel
  shapeCasts_S256x4096_S256x4096 : S256x4096.ShapeCasts S256x4096
  slices_S1x4096_o0_0_S1x256 : S1x4096.Slices ![0, 0] S1x256
  broadcasts_S1x256_S64x256 : S1x256.Broadcasts S64x256
  inb_S64x4096_S64x256_0_0 : ∀ a, (![0, 0] : Fin 2 → Nat) a + S64x256.size a ≤ S64x4096.size a
  h_S64x256 : 0 < S64x256.numel
  inb_S4096x4096_S256x4096_256_0 : ∀ a, (![256, 0] : Fin 2 → Nat) a + S256x4096.size a ≤ S4096x4096.size a
  slices_S1x4096_o0_256_S1x256 : S1x4096.Slices ![0, 256] S1x256
  inb_S64x4096_S64x256_0_256 : ∀ a, (![0, 256] : Fin 2 → Nat) a + S64x256.size a ≤ S64x4096.size a
  inb_S4096x4096_S256x4096_512_0 : ∀ a, (![512, 0] : Fin 2 → Nat) a + S256x4096.size a ≤ S4096x4096.size a
  slices_S1x4096_o0_512_S1x256 : S1x4096.Slices ![0, 512] S1x256
  inb_S64x4096_S64x256_0_512 : ∀ a, (![0, 512] : Fin 2 → Nat) a + S64x256.size a ≤ S64x4096.size a
  inb_S4096x4096_S256x4096_768_0 : ∀ a, (![768, 0] : Fin 2 → Nat) a + S256x4096.size a ≤ S4096x4096.size a
  slices_S1x4096_o0_768_S1x256 : S1x4096.Slices ![0, 768] S1x256
  inb_S64x4096_S64x256_0_768 : ∀ a, (![0, 768] : Fin 2 → Nat) a + S64x256.size a ≤ S64x4096.size a
  inb_S4096x4096_S256x4096_1024_0 : ∀ a, (![1024, 0] : Fin 2 → Nat) a + S256x4096.size a ≤ S4096x4096.size a
  slices_S1x4096_o0_1024_S1x256 : S1x4096.Slices ![0, 1024] S1x256
  inb_S64x4096_S64x256_0_1024 : ∀ a, (![0, 1024] : Fin 2 → Nat) a + S64x256.size a ≤ S64x4096.size a
  inb_S4096x4096_S256x4096_1280_0 : ∀ a, (![1280, 0] : Fin 2 → Nat) a + S256x4096.size a ≤ S4096x4096.size a
  slices_S1x4096_o0_1280_S1x256 : S1x4096.Slices ![0, 1280] S1x256
  inb_S64x4096_S64x256_0_1280 : ∀ a, (![0, 1280] : Fin 2 → Nat) a + S64x256.size a ≤ S64x4096.size a
  inb_S4096x4096_S256x4096_1536_0 : ∀ a, (![1536, 0] : Fin 2 → Nat) a + S256x4096.size a ≤ S4096x4096.size a
  slices_S1x4096_o0_1536_S1x256 : S1x4096.Slices ![0, 1536] S1x256
  inb_S64x4096_S64x256_0_1536 : ∀ a, (![0, 1536] : Fin 2 → Nat) a + S64x256.size a ≤ S64x4096.size a
  inb_S4096x4096_S256x4096_1792_0 : ∀ a, (![1792, 0] : Fin 2 → Nat) a + S256x4096.size a ≤ S4096x4096.size a
  slices_S1x4096_o0_1792_S1x256 : S1x4096.Slices ![0, 1792] S1x256
  inb_S64x4096_S64x256_0_1792 : ∀ a, (![0, 1792] : Fin 2 → Nat) a + S64x256.size a ≤ S64x4096.size a
  inb_S4096x4096_S256x4096_2048_0 : ∀ a, (![2048, 0] : Fin 2 → Nat) a + S256x4096.size a ≤ S4096x4096.size a
  slices_S1x4096_o0_2048_S1x256 : S1x4096.Slices ![0, 2048] S1x256
  inb_S64x4096_S64x256_0_2048 : ∀ a, (![0, 2048] : Fin 2 → Nat) a + S64x256.size a ≤ S64x4096.size a
  inb_S4096x4096_S256x4096_2304_0 : ∀ a, (![2304, 0] : Fin 2 → Nat) a + S256x4096.size a ≤ S4096x4096.size a
  slices_S1x4096_o0_2304_S1x256 : S1x4096.Slices ![0, 2304] S1x256
  inb_S64x4096_S64x256_0_2304 : ∀ a, (![0, 2304] : Fin 2 → Nat) a + S64x256.size a ≤ S64x4096.size a
  inb_S4096x4096_S256x4096_2560_0 : ∀ a, (![2560, 0] : Fin 2 → Nat) a + S256x4096.size a ≤ S4096x4096.size a
  slices_S1x4096_o0_2560_S1x256 : S1x4096.Slices ![0, 2560] S1x256
  inb_S64x4096_S64x256_0_2560 : ∀ a, (![0, 2560] : Fin 2 → Nat) a + S64x256.size a ≤ S64x4096.size a
  inb_S4096x4096_S256x4096_2816_0 : ∀ a, (![2816, 0] : Fin 2 → Nat) a + S256x4096.size a ≤ S4096x4096.size a
  slices_S1x4096_o0_2816_S1x256 : S1x4096.Slices ![0, 2816] S1x256
  inb_S64x4096_S64x256_0_2816 : ∀ a, (![0, 2816] : Fin 2 → Nat) a + S64x256.size a ≤ S64x4096.size a
  inb_S4096x4096_S256x4096_3072_0 : ∀ a, (![3072, 0] : Fin 2 → Nat) a + S256x4096.size a ≤ S4096x4096.size a
  slices_S1x4096_o0_3072_S1x256 : S1x4096.Slices ![0, 3072] S1x256
  inb_S64x4096_S64x256_0_3072 : ∀ a, (![0, 3072] : Fin 2 → Nat) a + S64x256.size a ≤ S64x4096.size a
  inb_S4096x4096_S256x4096_3328_0 : ∀ a, (![3328, 0] : Fin 2 → Nat) a + S256x4096.size a ≤ S4096x4096.size a
  slices_S1x4096_o0_3328_S1x256 : S1x4096.Slices ![0, 3328] S1x256
  inb_S64x4096_S64x256_0_3328 : ∀ a, (![0, 3328] : Fin 2 → Nat) a + S64x256.size a ≤ S64x4096.size a
  inb_S4096x4096_S256x4096_3584_0 : ∀ a, (![3584, 0] : Fin 2 → Nat) a + S256x4096.size a ≤ S4096x4096.size a
  slices_S1x4096_o0_3584_S1x256 : S1x4096.Slices ![0, 3584] S1x256
  inb_S64x4096_S64x256_0_3584 : ∀ a, (![0, 3584] : Fin 2 → Nat) a + S64x256.size a ≤ S64x4096.size a
  inb_S4096x4096_S256x4096_3840_0 : ∀ a, (![3840, 0] : Fin 2 → Nat) a + S256x4096.size a ≤ S4096x4096.size a
  slices_S1x4096_o0_3840_S1x256 : S1x4096.Slices ![0, 3840] S1x256
  inb_S64x4096_S64x256_0_3840 : ∀ a, (![0, 3840] : Fin 2 → Nat) a + S64x256.size a ≤ S64x4096.size a
  reduces_S64x4096_S64 : S64x4096.Reduces [1] S64
  shapeCasts_S64_S64x1 : S64.ShapeCasts S64x1
  broadcasts_S64x1_S64x4096 : S64x1.Broadcasts S64x4096
  shapeCasts_S16384x4096_S4x4096x4096 : S16384x4096.ShapeCasts S4x4096x4096
  dot_S64x4096_S256x4096_S64x256_1_1_0_0_n_n_wf : DotDims.WF S64x4096 S256x4096 S64x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S16384x4096.size a
  hwx0_0 : ∀ i : grid0.Coords, EltTy.bits .f32 = 32 ∨ (Rect.block (s := S16384x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x4096.size a ≤ S16384x4096.size a
  hwx0_7 : ∀ i : grid0.Coords, EltTy.bits .f32 = 32 ∨ (Rect.block (s := S16384x4096) S64x4096.size (cc0_transform_7 i) (hinb0_7 i)).WholeWords (EltTy.packing .f32)

variable [Facts₀]

def dot_S64x4096_S256x4096_S64x256_1_1_0_0_n_n : DotDims S64x4096 S256x4096 S64x256 where
  lhsContracting := [1]
  rhsContracting := [1]
  lhsNonContracting := [0]
  rhsNonContracting := [0]
  lhsBatch := []
  rhsBatch := []
  wf := dot_S64x4096_S256x4096_S64x256_1_1_0_0_n_n_wf

abbrev win0_0 : Pipeline.Window sig grid0 :=
  Pipeline.Window.ofSpec (Memref.whole main_v0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S64x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S1x1x4096 : Shape := ⟨3, ![1, 1, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S1x1x4096, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S1x1x4096, .f32⟩
  | .hbm, ⟨13, _⟩ => ⟨S4x4096x4096, .f32⟩
  | .hbm, ⟨14, _⟩ => ⟨S4x4096x4096, .f32⟩
  | .hbm, ⟨15, _⟩ => ⟨S1x1x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x1, .f32⟩
  | .hbm, ⟨39, _⟩ => ⟨S4x4096x4096, .f32⟩
  | .hbm, ⟨40, _⟩ => ⟨S4x4096x4096, .f32⟩
  | .hbm, ⟨41, _⟩ => ⟨S1x1x4096, .f32⟩
  | .hbm, ⟨42, _⟩ => ⟨S4x4096x4096, .f32⟩
  | .hbm, ⟨43, _⟩ => ⟨S4x4096x4096, .f32⟩
  | .hbm, ⟨44, _⟩ => ⟨S1x1x4096, .f32⟩
  | .hbm, ⟨45, _⟩ => ⟨S4x4096x4096, .f32⟩
  | .hbm, ⟨46, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  reducesTo_S4x4096x4096_S4x4096_d2 : S4x4096x4096.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  dot_S4x4096x4096_S4096x4096_S4x4096x4096_2_1_01_0_n_n_wf : DotDims.WF S4x4096x4096 S4096x4096 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.Spec.lean ====
/-
  The function both programs compute, on the extended reals.

  For one row X of 4096 activations: every output channel o takes the inner product of the scaled
  row X·g with the sign pattern of weight row o, adds bias o and scales by h o; the 4096 channels
  of the row are then normalized: the mean (the sum divided by 4096) is subtracted, the centred
  value is multiplied by the reciprocal square root of the mean of the centred squares plus a
  small constant, scaled by gamma and shifted by beta.
-/
import Idealize.ShloMosaic.PureOps.Ideal
import Idealize.ShloMosaic.Lib.ValueIdx

noncomputable section

namespace Cert.Spec

open Idealize.ShloMosaic Idealize.ShloMosaic.ValueIdx

/-- Channel o of a row before normalization: ((Σ_k X_k · g_k · W_{o,k}) + b_o) · h_o. -/
def affine (X g : Fin 4096 → EReal) (W : Fin 4096 → Fin 4096 → EReal) (b h : Fin 4096 → EReal)
    (o : Fin 4096) : EReal :=
  ((∑ k : Fin 4096, X k * g k * W o k) + b o) * h o

/-- The mean of a row of 4096 extended reals: its sum divided by the float 4096. -/
def mean (y : Fin 4096 → EReal) : EReal :=
  Ideal.div (∑ j : Fin 4096, y j) (Ideal.ofBits .f32 0x45800000#32)

/-- Layer normalization of a row: (y_o − μ) · rsqrt (mean of (y − μ)² + ε) · γ_o + β_o. -/
def layerNorm (y γ β : Fin 4096 → EReal) (o : Fin 4096) : EReal :=
  (y o - mean y) * Ideal.rsqrt (mean (fun j => (y j - mean y) * (y j - mean y)) + Ideal.ofBits .f32 0x3727C5AC#32)
    * γ o + β o

/-- The whole result, index by index: entry (a, r, o) is channel o of the normalized affine image of
    row (a, r) of x under the sign pattern of the weights. -/
def G (x : (⟨3, ![4, 4096, 4096]⟩ : Shape).Idx → EReal) (w : (⟨2, ![4096, 4096]⟩ : Shape).Idx → EReal)
    (b g h γ β : (⟨1, ![4096]⟩ : Shape).Idx → EReal) : (⟨3, ![4, 4096, 4096]⟩ : Shape).Idx → EReal :=
  fun i => layerNorm
    (affine (fun k => x (ix3 (i 0) (i 1) k)) (fun k => g (ix1 k)) (fun o k => Ideal.sign (w (ix2 o k)))
      (fun o => b (ix1 o)) (fun o => h (ix1 o)))
    (fun o => γ (ix1 o)) (fun o => β (ix1 o)) (i 2)

end Cert.Spec

end
-- ==== Proof.RefSpec.lean ====
/-
  The reference program computes the specified function.

  The reference's run is read one operation at a time at an index (a, r, o): the contraction over the
  input channels with the sign pattern of the weights, the bias and the output scale give the affine
  channel value; the two row sums divided by 4096 give the mean and the mean of the centred squares;
  the last operations normalize, scale and shift. Every step is the corresponding sub-term of the
  specification at the extended reals.
-/
import proofs.«163807_j17214228922556_2_alg».proof.Proof.Gen.ReferenceIdeal.Read
import proofs.«163807_j17214228922556_2_alg».proof.Proof.Spec

noncomputable section

namespace Cert.RefSpec

open Cert.ReferenceIdeal Cert.ReferenceIdeal.Gen Cert.ReferenceIdeal.Read Idealize.ShloMosaic
  Idealize.ShloMosaic.ValueIdx

/-! ## Index equations: the generated index functions at an index given by coordinates -/

/-- The left operand of the contraction is read at (a, r, k). -/
theorem lidx4 (a : Fin 4) (r o k : Fin 4096) : lidx_main_v4 (ix3 a r o) k = ix3 a r k :=
  funext fun d => Fin.ext (by match d with | ⟨0, _⟩ => rfl | ⟨1, _⟩ => rfl | ⟨2, _⟩ => rfl)

/-- The right operand of the contraction is read at (o, k). -/
theorem ridx4 (a : Fin 4) (r o k : Fin 4096) : ridx_main_v4 (ix3 a r o) k = ix2 o k :=
  funext fun d => Fin.ext (by match d with | ⟨0, _⟩ => rfl | ⟨1, _⟩ => rfl)

/-- A vector broadcast along the last axis is read at the last coordinate. -/
theorem idx12 (a : Fin 4) (r o : Fin 4096) : idx_main_v1 (idx_main_v2 (ix3 a r o)) = ix1 o :=
  funext fun d => Fin.ext (by match d with | ⟨0, _⟩ => rfl)
theorem idx56 (a : Fin 4) (r o : Fin 4096) : idx_main_v5 (idx_main_v6 (ix3 a r o)) = ix1 o :=
  funext fun d => Fin.ext (by match d with | ⟨0, _⟩ => rfl)
theorem idx89 (a : Fin 4) (r o : Fin 4096) : idx_main_v8 (idx_main_v9 (ix3 a r o)) = ix1 o :=
  funext fun d => Fin.ext (by match d with | ⟨0, _⟩ => rfl)

/-! ## The affine part -/

/-- Operation 10 at (a, r, o) is channel o of the affine image of row (a, r). -/
theorem v10_eq (x0 : (⟨S4x4096x4096, .f32⟩ : BufTy).Contents (Elt Ideal))
    (x1 : (⟨S4096x4096, .f32⟩ : BufTy).Contents (Elt Ideal))
    (x2 x3 x4 : (⟨S4096, .f32⟩ : BufTy).Contents (Elt Ideal)) (a : Fin 4) (r o : Fin 4096) :
    val_main_v10 (F := Ideal) x0 x1 x2 x3 x4 (ix3 a r o)
      = Cert.Spec.affine (fun k => x0 (ix3 a r k)) (fun k => x3 (ix1 k))
          (fun o k => Ideal.sign (x1 (ix2 o k))) (fun o => x2 (ix1 o)) (fun o => x4 (ix1 o)) o := by
  rw [val_main_v10_apply, val_main_v7_apply, val_main_v4_apply, val_main_v6_apply, val_main_v5_apply,
    val_main_v9_apply, val_main_v8_apply]
  simp only [val_main_v3_apply, val_main_v2_apply, val_main_v1_apply, val_main_v0_apply,
    Ideal.mulf_def, Ideal.addf_def, Ideal.hostUnary_sign_def, lidx4, ridx4, idx12, idx56, idx89]
  unfold Cert.Spec.affine
  rfl
/-! ## The row sums: mean and mean of the centred squares -/

/-- A row statistic, kept with a trailing axis of size one, is read at the row's two coordinates … -/
theorem idx12r (a : Fin 4) (r : Fin 4096) (z : Fin 1) : idx_main_v12 (ix3 a r z) = ix2 a r :=
  funext fun d => Fin.ext (by match d with | ⟨0, _⟩ => rfl | ⟨1, _⟩ => rfl)
theorem idx19r (a : Fin 4) (r : Fin 4096) (z : Fin 1) : idx_main_v19 (ix3 a r z) = ix2 a r :=
  funext fun d => Fin.ext (by match d with | ⟨0, _⟩ => rfl | ⟨1, _⟩ => rfl)
/-- … and the sum over the last axis runs over (a, r, k). -/
theorem idx11r (a : Fin 4) (r k : Fin 4096) : idx_main_v11 (ix2 a r) k = ix3 a r k :=
  funext fun d => Fin.ext (by match d with | ⟨0, _⟩ => rfl | ⟨1, _⟩ => rfl | ⟨2, _⟩ => rfl)
theorem idx18r (a : Fin 4) (r k : Fin 4096) : idx_main_v18 (ix2 a r) k = ix3 a r k :=
  funext fun d => Fin.ext (by match d with | ⟨0, _⟩ => rfl | ⟨1, _⟩ => rfl | ⟨2, _⟩ => rfl)
/-- A row statistic broadcast back along the last axis is read at the row, trailing coordinate 0. -/
theorem idx15r (a : Fin 4) (r o : Fin 4096) : idx_main_v15 (ix3 a r o) = ix3 a r (⟨0, Nat.one_pos⟩ : Fin 1) :=
  funext fun d => Fin.ext (by match d with | ⟨0, _⟩ => rfl | ⟨1, _⟩ => rfl | ⟨2, _⟩ => rfl)
theorem idx22r (a : Fin 4) (r o : Fin 4096) : idx_main_v22 (ix3 a r o) = ix3 a r (⟨0, Nat.one_pos⟩ : Fin 1) :=
  funext fun d => Fin.ext (by match d with | ⟨0, _⟩ => rfl | ⟨1, _⟩ => rfl | ⟨2, _⟩ => rfl)
theorem idx27r (a : Fin 4) (r o : Fin 4096) : idx_main_v27 (ix3 a r o) = ix3 a r (⟨0, Nat.one_pos⟩ : Fin 1) :=
  funext fun d => Fin.ext (by match d with | ⟨0, _⟩ => rfl | ⟨1, _⟩ => rfl | ⟨2, _⟩ => rfl)
theorem idx2930 (a : Fin 4) (r o : Fin 4096) : idx_main_v29 (idx_main_v30 (ix3 a r o)) = ix1 o :=
  funext fun d => Fin.ext (by match d with | ⟨0, _⟩ => rfl)
theorem idx3233 (a : Fin 4) (r o : Fin 4096) : idx_main_v32 (idx_main_v33 (ix3 a r o)) = ix1 o :=
  funext fun d => Fin.ext (by match d with | ⟨0, _⟩ => rfl)

/-- Operation 14 at row (a, r) is the mean of the row of operation 10. -/
theorem v14_eq (x0 : (⟨S4x4096x4096, .f32⟩ : BufTy).Contents (Elt Ideal))
    (x1 : (⟨S4096x4096, .f32⟩ : BufTy).Contents (Elt Ideal))
    (x2 x3 x4 : (⟨S4096, .f32⟩ : BufTy).Contents (Elt Ideal)) (a : Fin 4) (r : Fin 4096) (z : Fin 1) :
    val_main_v14 (F := Ideal) x0 x1 x2 x3 x4 (ix3 a r z)
      = Cert.Spec.mean (fun j => val_main_v10 (F := Ideal) x0 x1 x2 x3 x4 (ix3 a r j)) := by
  rw [val_main_v14_apply, val_main_v12_apply, val_main_v11_apply, val_main_v13_apply, val_main_cst_0_apply,
    val_main_cst_apply]
  simp only [Ideal.hostDivf_def, Ideal.ofBits_def, Ideal.ofBits_zero_f32, zero_add, idx12r, idx11r]
  rfl

/-- Operations 16 and 23 at (a, r, o) are the centred value. -/
theorem v16_eq (x0 : (⟨S4x4096x4096, .f32⟩ : BufTy).Contents (Elt Ideal))
    (x1 : (⟨S4096x4096, .f32⟩ : BufTy).Contents (Elt Ideal))
    (x2 x3 x4 : (⟨S4096, .f32⟩ : BufTy).Contents (Elt Ideal)) (a : Fin 4) (r o : Fin 4096) :
    val_main_v16 (F := Ideal) x0 x1 x2 x3 x4 (ix3 a r o)
      = val_main_v10 (F := Ideal) x0 x1 x2 x3 x4 (ix3 a r o)
        - Cert.Spec.mean (fun j => val_main_v10 (F := Ideal) x0 x1 x2 x3 x4 (ix3 a r j)) := by
  rw [val_main_v16_apply, val_main_v15_apply, idx15r, v14_eq, Ideal.subf_def]
theorem v23_eq (x0 : (⟨S4x4096x4096, .f32⟩ : BufTy).Contents (Elt Ideal))
    (x1 : (⟨S4096x4096, .f32⟩ : BufTy).Contents (Elt Ideal))
    (x2 x3 x4 : (⟨S4096, .f32⟩ : BufTy).Contents (Elt Ideal)) (a : Fin 4) (r o : Fin 4096) :
    val_main_v23 (F := Ideal) x0 x1 x2 x3 x4 (ix3 a r o)
      = val_main_v10 (F := Ideal) x0 x1 x2 x3 x4 (ix3 a r o)
        - Cert.Spec.mean (fun j => val_main_v10 (F := Ideal) x0 x1 x2 x3 x4 (ix3 a r j)) := by
  rw [val_main_v23_apply, val_main_v22_apply, idx22r, v14_eq, Ideal.subf_def]

/-- Operation 21 at row (a, r) is the mean of the centred squares. -/
theorem v21_eq (x0 : (⟨S4x4096x4096, .f32⟩ : BufTy).Contents (Elt Ideal))
    (x1 : (⟨S4096x4096, .f32⟩ : BufTy).Contents (Elt Ideal))
    (x2 x3 x4 : (⟨S4096, .f32⟩ : BufTy).Contents (Elt Ideal)) (a : Fin 4) (r : Fin 4096) (z : Fin 1) :
    val_main_v21 (F := Ideal) x0 x1 x2 x3 x4 (ix3 a r z)
      = Cert.Spec.mean (fun j =>
          (val_main_v10 (F := Ideal) x0 x1 x2 x3 x4 (ix3 a r j)
            - Cert.Spec.mean (fun j => val_main_v10 (F := Ideal) x0 x1 x2 x3 x4 (ix3 a r j)))
          * (val_main_v10 (F := Ideal) x0 x1 x2 x3 x4 (ix3 a r j)
            - Cert.Spec.mean (fun j => val_main_v10 (F := Ideal) x0 x1 x2 x3 x4 (ix3 a r j)))) := by
  rw [val_main_v21_apply, val_main_v19_apply, val_main_v18_apply, val_main_v20_apply, val_main_cst_2_apply,
    val_main_cst_1_apply]
  simp only [val_main_v17_apply, idx19r, idx18r, v16_eq, Ideal.hostDivf_def, Ideal.ofBits_def,
    Ideal.ofBits_zero_f32, zero_add, Ideal.mulf_def]
  rfl

/-! ## The normalization, and the whole -/

/-- Operation 34 at (a, r, o) is channel o of the normalized row of operation 10. -/
theorem v34_eq (x0 : (⟨S4x4096x4096, .f32⟩ : BufTy).Contents (Elt Ideal))
    (x1 : (⟨S4096x4096, .f32⟩ : BufTy).Contents (Elt Ideal))
    (x2 x3 x4 x5 x6 : (⟨S4096, .f32⟩ : BufTy).Contents (Elt Ideal)) (a : Fin 4) (r o : Fin 4096) :
    val_main_v34 (F := Ideal) x0 x1 x2 x3 x4 x5 x6 (ix3 a r o)
      = Cert.Spec.layerNorm (fun j => val_main_v10 (F := Ideal) x0 x1 x2 x3 x4 (ix3 a r j))
          (fun o => x5 (ix1 o)) (fun o => x6 (ix1 o)) o := by
  rw [val_main_v34_apply, val_main_v31_apply, val_main_v28_apply, val_main_v27_apply, val_main_v26_apply,
    val_main_v25_apply, val_main_v24_apply, val_main_cst_3_apply, val_main_v30_apply, val_main_v29_apply,
    val_main_v33_apply, val_main_v32_apply, idx27r, v21_eq, v23_eq, idx2930, idx3233]
  simp only [Ideal.addf_def, Ideal.mulf_def, Ideal.hostUnary_rsqrt_def, Ideal.ofBits_def]
  rfl

/-- The row of operation 10 is the affine image of the row. -/
theorem row10_eq (x0 : (⟨S4x4096x4096, .f32⟩ : BufTy).Contents (Elt Ideal))
    (x1 : (⟨S4096x4096, .f32⟩ : BufTy).Contents (Elt Ideal))
    (x2 x3 x4 : (⟨S4096, .f32⟩ : BufTy).Contents (Elt Ideal)) (a : Fin 4) (r : Fin 4096) :
    (fun j => val_main_v10 (F := Ideal) x0 x1 x2 x3 x4 (ix3 a r j))
      = Cert.Spec.affine (fun k => x0 (ix3 a r k)) (fun k => x3 (ix1 k))
          (fun o k => Ideal.sign (x1 (ix2 o k))) (fun o => x2 (ix1 o)) (fun o => x4 (ix1 o)) :=
  funext fun j => v10_eq x0 x1 x2 x3 x4 a r j

/-- The reference's result is the specified function. -/
theorem ref_eq (x0 : (⟨S4x4096x4096, .f32⟩ : BufTy).Contents (Elt Ideal))
    (x1 : (⟨S4096x4096, .f32⟩ : BufTy).Contents (Elt Ideal))
    (x2 x3 x4 x5 x6 : (⟨S4096, .f32⟩ : BufTy).Contents (Elt Ideal)) :
    Cert.ReferenceIdeal.Read.val_main_v34 (F := Ideal) x0 x1 x2 x3 x4 x5 x6
      = Cert.Spec.G x0 x1 x2 x3 x4 x5 x6 := by
  funext i
  have h := v34_eq x0 x1 x2 x3 x4 x5 x6 (i 0) (i 1) (i 2)
  rw [row10_eq x0 x1 x2 x3 x4 (i 0) (i 1)] at h
  exact (congrArg (val_main_v34 (F := Ideal) x0 x1 x2 x3 x4 x5 x6) (eq_ix3 i)).trans h

end Cert.RefSpec

end
-- ==== Proof.KTile.lean ====
/-
  One 64 × 256 tile of the kernel's pre-normalization block, read at an index.

  The body scales its 64 × 4096 block of x by the row g, and for each of sixteen groups of 256 output
  channels multiplies the scaled block with the 256 matching rows of the sign matrix (contracting the
  4096 input channels), adds the group's slice of the bias row and multiplies by the group's slice of
  the row h.  At (p, q) of the group that starts at channel off this is
      ((Σ_k x(p,k) · g(k) · w(off+q, k)) + bias(off+q)) · h(off+q).
-/
import proofs.«163807_j17214228922556_2_alg».proof.Proof.Gen.KernelIdeal.Frame
import proofs.«163807_j17214228922556_2_alg».proof.Proof.Spec
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.KValue

open Cert.KernelIdeal Cert.KernelIdeal.Gen

theorem hz : (![0, 0] : Fin 2 → Nat) = fun _ => 0 := funext fun a => by fin_cases a <;> rfl

/-- The contraction record of the body's sixteen products: x-block [64, 4096] against a weight group [256, 4096],
    both contracted on their second axis. -/
abbrev dotD : DotDims S64x4096 S256x4096 S64x256 := dot_S64x4096_S256x4096_S64x256_1_1_0_0_n_n

theorem lhs0 (j : S64x256.Idx) (q : dotD.contr.Idx) : (dotD.lhsIdx j q 0).val = (j 0).val := by
  unfold DotDims.lhsIdx
  rw [dif_neg (show ¬(0 : Fin S64x4096.rank) ∈ dotD.lhsBatch by decide), dif_pos (show (0 : Fin S64x4096.rank) ∈ dotD.lhsNonContracting by decide)]
  rfl
theorem lhs1 (j : S64x256.Idx) (q : dotD.contr.Idx) : (dotD.lhsIdx j q 1).val = (q ⟨0, by decide⟩).val :=
  dotD.lhsIdx_val_of_single rfl j q
theorem rhs0 (j : S64x256.Idx) (q : dotD.contr.Idx) : (dotD.rhsIdx j q 0).val = (j 1).val := by
  unfold DotDims.rhsIdx
  rw [dif_neg (show ¬(0 : Fin S256x4096.rank) ∈ dotD.rhsBatch by decide), dif_pos (show (0 : Fin S256x4096.rank) ∈ dotD.rhsNonContracting by decide)]
  rfl
theorem rhs1 (j : S64x256.Idx) (q : dotD.contr.Idx) : (dotD.rhsIdx j q 1).val = (q ⟨0, by decide⟩).val :=
  dotD.rhsIdx_val_of_single rfl j q

/-- The product into the zero accumulator at (p, q): the sum over the 4096 contracted channels. -/
theorem matmul_tile_apply (A : FVec Ideal S64x4096 .bf16) (W : FVec Ideal S256x4096 .bf16) (p : Fin 64) (q : Fin 256) :
    matmul dotD none A W (constant S64x256 .f32 0x00000000#32) (ix2 p q) = ∑ k : Fin 4096, A (ix2 p k) * W (ix2 q k) := by
  show FloatOps.matmul dotD none A W (constant S64x256 .f32 0x00000000#32) (ix2 p q) = _
  rw [Ideal.matmul_constant_zero_apply, ← Equiv.sum_comp (ValueIdx.contrEquiv1 dotD 4096 rfl rfl).symm]
  refine Finset.sum_congr rfl fun k _ => ?_
  have hk := ValueIdx.contrEquiv1_symm_val dotD 4096 rfl rfl k
  have el : dotD.lhsIdx (ix2 p q) ((ValueIdx.contrEquiv1 dotD 4096 rfl rfl).symm k) = ix2 p k := funext fun a => Fin.ext (by
    match a with
    | ⟨0, _⟩ => exact lhs0 _ _
    | ⟨1, _⟩ => exact (lhs1 _ _).trans hk)
  have er : dotD.rhsIdx (ix2 p q) ((ValueIdx.contrEquiv1 dotD 4096 rfl rfl).symm k) = ix2 q k := funext fun a => Fin.ext (by
    match a with
    | ⟨0, _⟩ => exact rhs0 _ _
    | ⟨1, _⟩ => exact (rhs1 _ _).trans hk)
  rw [el, er]

/-- A group's slice of a [1, 4096] row, broadcast down the 64 rows, at (p, q): the row's entry off + q. -/
theorem slice_row_apply (v : FVec Ideal S1x4096 .f32) (off : Nat) (hs : S1x4096.Slices ![0, off] S1x256)
    (hb : S1x256.Broadcasts S64x256) (p : Fin 64) (q : Fin 256) (h : off + q.val < 4096) :
    broadcastTo S64x256 (extractStridedSlice S1x256 ![0, off] v hs) hb (ix2 p q) = v (ix2 (0 : Fin 1) ⟨off + q.val, h⟩) := by
  rw [broadcastTo_1b_ab_apply]
  exact extractStridedSlice_apply _ v hs _ _ (fun a => by match a with | ⟨0, _⟩ => rfl | ⟨1, _⟩ => rfl)

/-- The scaled block x · g, as the body computes it from its loads of the x block and of the row g, at (p, k). -/
theorem xg_apply (a1 : Memref sig .tc .vmem S64x4096 .f32) (h1 : a1.IsWhole) (a3 : Memref sig .tc .vmem S1x4096 .f32) (h3 : a3.IsWhole)
    (x0 : Vec Ideal S64x4096 .f32) (x2 : Vec Ideal S1x4096 .f32) (p : Fin 64) (k : Fin 4096) :
    k0_pay2 (F := Ideal) (View.readAt (Elt Ideal) a1.view (Rect.unit ![0, 0] S64x4096.size inb_S64x4096_S64x4096_0_0).toLoadRect (h1.unread x0))
      (View.readAt (Elt Ideal) a3.view (Rect.unit ![0, 0] S1x4096.size inb_S1x4096_S1x4096_0_0).toLoadRect (h3.unread x2)) (ix2 p k)
      = x0 (ix2 p k) * x2 (ix2 (0 : Fin 1) k) := by
  unfold k0_pay2
  simp only [View.readAt_eq_ld, h1.read_unread, h3.read_unread, View.ld_unit_zero (S := S64x4096) hz, View.ld_unit_zero (S := S1x4096) hz, shapeCast_self]
  rw [truncf_apply, mulf_apply, broadcastTo_1b_ab_apply]

/-- The body's load of the 256 rows of the sign matrix that start at row off. -/
abbrev wload (a2 : Memref sig .tc .vmem S4096x4096 .bf16) (h2 : a2.IsWhole) (x1 : Vec Ideal S4096x4096 .bf16) (off : Nat)
    (inb : ∀ a, (![off, 0] : Fin 2 → Nat) a + S256x4096.size a ≤ S4096x4096.size a) : Vec Ideal S256x4096 .bf16 :=
  View.readAt (Elt Ideal) a2.view (Rect.unit (s := S4096x4096) ![off, 0] S256x4096.size inb).toLoadRect (h2.unread x1)

/-- That load at (q, k): the matrix at (off + q, k). -/
theorem wtile_apply (a2 : Memref sig .tc .vmem S4096x4096 .bf16) (h2 : a2.IsWhole) (x1 : Vec Ideal S4096x4096 .bf16) (off : Nat)
    (inb : ∀ a, (![off, 0] : Fin 2 → Nat) a + S256x4096.size a ≤ S4096x4096.size a) (hc : S256x4096.ShapeCasts S256x4096)
    (q : Fin 256) (k : Fin 4096) (h : off + q.val < 4096) :
    shapeCast S256x4096 (wload a2 h2 x1 off inb) hc (ix2 q k) = x1 (ix2 (⟨off + q.val, h⟩ : Fin 4096) k) := by
  rw [shapeCast_self]
  show View.readAt (Elt Ideal) a2.view (Rect.unit (s := S4096x4096) ![off, 0] S256x4096.size inb).toLoadRect (h2.unread x1) (ix2 q k) = _
  rw [View.readAt_eq_ld, h2.read_unread]
  show x1 ((Rect.unit (s := S4096x4096) ![off, 0] S256x4096.size inb).emb (ix2 q k)) = _
  refine congrArg x1 (funext fun a => Fin.ext ?_)
  match a with
  | ⟨0, _⟩ => show off + 1 * q.val = off + q.val; omega
  | ⟨1, _⟩ => show 0 + 1 * k.val = k.val; omega

/-- Entry (p, j) of the block before normalization, from the contents of the five staged buffers the
    sixteen tiles read: the x block, the sign matrix, and the rows g, h and bias. -/
def preRow (x0 : Vec Ideal S64x4096 .f32) (x1 : Vec Ideal S4096x4096 .bf16) (x2 x3 x4 : Vec Ideal S1x4096 .f32)
    (p : Fin 64) (j : Fin 4096) : EReal :=
  ((∑ k : Fin 4096, x0 (ix2 p k) * x2 (ix2 (0 : Fin 1) k) * x1 (ix2 j k)) + x4 (ix2 (0 : Fin 1) j)) * x3 (ix2 (0 : Fin 1) j)

/-- One tile's payload, spelt over the body's loads, at (p, q) of the group starting at channel off. -/
theorem piece_apply (a1 : Memref sig .tc .vmem S64x4096 .f32) (h1 : a1.IsWhole) (a2 : Memref sig .tc .vmem S4096x4096 .bf16) (h2 : a2.IsWhole)
    (a3 : Memref sig .tc .vmem S1x4096 .f32) (h3 : a3.IsWhole) (a4 : Memref sig .tc .vmem S1x4096 .f32) (h4 : a4.IsWhole)
    (a5 : Memref sig .tc .vmem S1x4096 .f32) (h5 : a5.IsWhole)
    (x0 : Vec Ideal S64x4096 .f32) (x1 : Vec Ideal S4096x4096 .bf16) (x2 x3 x4 : Vec Ideal S1x4096 .f32) (off : Nat)
    (inb : ∀ a, (![off, 0] : Fin 2 → Nat) a + S256x4096.size a ≤ S4096x4096.size a) (hc : S256x4096.ShapeCasts S256x4096)
    (hs : S1x4096.Slices ![0, off] S1x256) (hb : S1x256.Broadcasts S64x256) (p : Fin 64) (q : Fin 256) (h : off + q.val < 4096) :
    mulf (addf (matmul dotD none
        (k0_pay2 (F := Ideal) (View.readAt (Elt Ideal) a1.view (Rect.unit ![0, 0] S64x4096.size inb_S64x4096_S64x4096_0_0).toLoadRect (h1.unread x0))
          (View.readAt (Elt Ideal) a3.view (Rect.unit ![0, 0] S1x4096.size inb_S1x4096_S1x4096_0_0).toLoadRect (h3.unread x2)))
        (shapeCast S256x4096 (wload a2 h2 x1 off inb) hc : FVec Ideal S256x4096 .bf16)
        (constant S64x256 .f32 0x00000000#32))
      (broadcastTo S64x256 (extractStridedSlice S1x256 ![0, off]
        (k0_pay3 (F := Ideal) (View.readAt (Elt Ideal) a5.view (Rect.unit ![0, 0] S1x4096.size inb_S1x4096_S1x4096_0_0).toLoadRect (h5.unread x4))) hs) hb))
      (broadcastTo S64x256 (extractStridedSlice S1x256 ![0, off]
        (k0_pay4 (F := Ideal) (View.readAt (Elt Ideal) a4.view (Rect.unit ![0, 0] S1x4096.size inb_S1x4096_S1x4096_0_0).toLoadRect (h4.unread x3))) hs) hb)
      (ix2 p q)
      = preRow x0 x1 x2 x3 x4 p ⟨off + q.val, h⟩ := by
  rw [mulf_apply, addf_apply, matmul_tile_apply, slice_row_apply _ off hs hb p q h, slice_row_apply _ off hs hb p q h]
  unfold preRow
  refine congrArg₂ (· * ·) (congrArg₂ (· + ·) (Finset.sum_congr rfl fun k _ => ?_) ?_) ?_
  · rw [xg_apply, wtile_apply a2 h2 x1 off inb hc q k h]
  · unfold k0_pay3
    simp only [View.readAt_eq_ld, h5.read_unread, View.ld_unit_zero (S := S1x4096) hz, shapeCast_self]
  · unfold k0_pay4
    simp only [View.readAt_eq_ld, h4.read_unread, View.ld_unit_zero (S := S1x4096) hz, shapeCast_self]

end Cert.KernelIdeal.KValue

end
-- ==== Proof.KBlock.lean ====
/-
  The kernel's 64 × 4096 block, read at an index.

  The sixteen tile stores fill the output buffer, each with its 256 columns of one function of the
  buffer's index: entry (p, j) is ((Σ_k x(p,k) · g(k) · w(j,k)) + bias(j)) · h(j).  The body then reads
  the whole buffer back and overwrites it with the normalization of what it read, so what the body
  leaves is the normalization pass applied to that one function.
-/
import proofs.«163807_j17214228922556_2_alg».proof.Proof.Gen.KernelIdeal.Frame
import proofs.«163807_j17214228922556_2_alg».proof.Proof.Spec
import proofs.«163807_j17214228922556_2_alg».proof.Proof.KTile
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.KValue

open Cert.KernelIdeal Cert.KernelIdeal.Gen

/-- The block before normalization as one function of the buffer's index. -/
def preBlock (x0 : Vec Ideal S64x4096 .f32) (x1 : Vec Ideal S4096x4096 .bf16) (x2 x3 x4 : Vec Ideal S1x4096 .f32) :
    Vec Ideal S64x4096 .f32 :=
  fun y => preRow x0 x1 x2 x3 x4 ⟨(y 0).val, idx2_lt0 y⟩ ⟨(y 1).val, idx2_lt1 y⟩

theorem preBlock_apply (x0 : Vec Ideal S64x4096 .f32) (x1 : Vec Ideal S4096x4096 .bf16) (x2 x3 x4 : Vec Ideal S1x4096 .f32)
    (p : Fin 64) (j : Fin 4096) : preBlock x0 x1 x2 x3 x4 (ix2 p j) = preRow x0 x1 x2 x3 x4 p j := rfl

/-- A 64 × 256 payload that is columns off … off + 255 of the block function, stored at column off, is a piece of it. -/
theorem tile_piece (x0 : Vec Ideal S64x4096 .f32) (x1 : Vec Ideal S4096x4096 .bf16) (x2 x3 x4 : Vec Ideal S1x4096 .f32) (off : Nat)
    (inbO : ∀ a, (![0, off] : Fin 2 → Nat) a + S64x256.size a ≤ S64x4096.size a) (w : FVec Ideal S64x256 .f32) (hoff : off + 256 ≤ 4096)
    (hw : ∀ (p : Fin 64) (q : Fin 256), w (ix2 p q) = preRow x0 x1 x2 x3 x4 p ⟨off + q.val, by have := q.isLt; omega⟩) :
    ∀ x : (Rect.unit (s := S64x4096) ![0, off] S64x256.size inbO).shape.Idx,
      w x = preBlock x0 x1 x2 x3 x4 ((Rect.unit (s := S64x4096) ![0, off] S64x256.size inbO).emb x) := by
  intro x
  obtain ⟨p, q, rfl⟩ : ∃ (p : Fin 64) (q : Fin 256), x = ix2 p q := ⟨x 0, x 1, eq_ix2 x⟩
  rw [hw p q]
  unfold preBlock
  exact congrArg₂ (preRow x0 x1 x2 x3 x4) (Fin.ext (by show p.val = 0 + 1 * p.val; omega)) (Fin.ext (by show off + q.val = off + 1 * q.val; omega))

/-- Every one of the sixteen tile stores writes its columns of the block function. -/
theorem pieces_eq (c : Dev nD) (a1 : Memref sig .tc .vmem S64x4096 .f32) (h1 : a1.IsWhole) (a2 : Memref sig .tc .vmem S4096x4096 .bf16) (h2 : a2.IsWhole)
    (a3 : Memref sig .tc .vmem S1x4096 .f32) (h3 : a3.IsWhole) (a4 : Memref sig .tc .vmem S1x4096 .f32) (h4 : a4.IsWhole)
    (a5 : Memref sig .tc .vmem S1x4096 .f32) (h5 : a5.IsWhole)
    (x0 : Vec Ideal S64x4096 .f32) (x1 : Vec Ideal S4096x4096 .bf16) (x2 x3 x4 : Vec Ideal S1x4096 .f32) :
    ∀ pc ∈ kernelRun0_A.sl.H7_16 (F := Ideal) c a1 h1 a2 h2 a3 h3 a4 h4 a5 h5 x0 x1 x2 x3 x4, ∀ x : pc.1.shape.Idx,
      pc.2 x = preBlock x0 x1 x2 x3 x4 (pc.1.emb x) := by
  sl_unfold_run_names
  refine (List.forall_mem_cons.mpr ⟨?t3840, (List.forall_mem_cons.mpr ⟨?t3584, (List.forall_mem_cons.mpr ⟨?t3328, (List.forall_mem_cons.mpr ⟨?t3072, (List.forall_mem_cons.mpr ⟨?t2816, (List.forall_mem_cons.mpr ⟨?t2560, (List.forall_mem_cons.mpr ⟨?t2304, (List.forall_mem_cons.mpr ⟨?t2048, (List.forall_mem_cons.mpr ⟨?t1792, (List.forall_mem_cons.mpr ⟨?t1536, (List.forall_mem_cons.mpr ⟨?t1280, (List.forall_mem_cons.mpr ⟨?t1024, (List.forall_mem_cons.mpr ⟨?t768, (List.forall_mem_cons.mpr ⟨?t512, (List.forall_mem_cons.mpr ⟨?t256, (List.forall_mem_cons.mpr ⟨?t0, (fun _ hm => absurd hm List.not_mem_nil)⟩)⟩)⟩)⟩)⟩)⟩)⟩)⟩)⟩)⟩)⟩)⟩)⟩)⟩)⟩)⟩)
  case t3840 =>
    refine tile_piece x0 x1 x2 x3 x4 3840 inb_S64x4096_S64x256_0_3840 _ (by decide) fun p q => ?_
    unfold k0_pay23
    exact piece_apply a1 h1 a2 h2 a3 h3 a4 h4 a5 h5 x0 x1 x2 x3 x4 3840 _ _ _ _ p q _
  case t3584 =>
    refine tile_piece x0 x1 x2 x3 x4 3584 inb_S64x4096_S64x256_0_3584 _ (by decide) fun p q => ?_
    unfold k0_pay22
    exact piece_apply a1 h1 a2 h2 a3 h3 a4 h4 a5 h5 x0 x1 x2 x3 x4 3584 _ _ _ _ p q _
  case t3328 =>
    refine tile_piece x0 x1 x2 x3 x4 3328 inb_S64x4096_S64x256_0_3328 _ (by decide) fun p q => ?_
    unfold k0_pay21
    exact piece_apply a1 h1 a2 h2 a3 h3 a4 h4 a5 h5 x0 x1 x2 x3 x4 3328 _ _ _ _ p q _
  case t3072 =>
    refine tile_piece x0 x1 x2 x3 x4 3072 inb_S64x4096_S64x256_0_3072 _ (by decide) fun p q => ?_
    unfold k0_pay20
    exact piece_apply a1 h1 a2 h2 a3 h3 a4 h4 a5 h5 x0 x1 x2 x3 x4 3072 _ _ _ _ p q _
  case t2816 =>
    refine tile_piece x0 x1 x2 x3 x4 2816 inb_S64x4096_S64x256_0_2816 _ (by decide) fun p q => ?_
    unfold k0_pay19
    exact piece_apply a1 h1 a2 h2 a3 h3 a4 h4 a5 h5 x0 x1 x2 x3 x4 2816 _ _ _ _ p q _
  case t2560 =>
    refine tile_piece x0 x1 x2 x3 x4 2560 inb_S64x4096_S64x256_0_2560 _ (by decide) fun p q => ?_
    unfold k0_pay18
    exact piece_apply a1 h1 a2 h2 a3 h3 a4 h4 a5 h5 x0 x1 x2 x3 x4 2560 _ _ _ _ p q _
  case t2304 =>
    refine tile_piece x0 x1 x2 x3 x4 2304 inb_S64x4096_S64x256_0_2304 _ (by decide) fun p q => ?_
    unfold k0_pay17
    exact piece_apply a1 h1 a2 h2 a3 h3 a4 h4 a5 h5 x0 x1 x2 x3 x4 2304 _ _ _ _ p q _
  case t2048 =>
    refine tile_piece x0 x1 x2 x3 x4 2048 inb_S64x4096_S64x256_0_2048 _ (by decide) fun p q => ?_
    unfold k0_pay16
    exact piece_apply a1 h1 a2 h2 a3 h3 a4 h4 a5 h5 x0 x1 x2 x3 x4 2048 _ _ _ _ p q _
  case t1792 =>
    refine tile_piece x0 x1 x2 x3 x4 1792 inb_S64x4096_S64x256_0_1792 _ (by decide) fun p q => ?_
    unfold k0_pay15
    exact piece_apply a1 h1 a2 h2 a3 h3 a4 h4 a5 h5 x0 x1 x2 x3 x4 1792 _ _ _ _ p q _
  case t1536 =>
    refine tile_piece x0 x1 x2 x3 x4 1536 inb_S64x4096_S64x256_0_1536 _ (by decide) fun p q => ?_
    unfold k0_pay14 k0_pay13
    exact piece_apply a1 h1 a2 h2 a3 h3 a4 h4 a5 h5 x0 x1 x2 x3 x4 1536 _ _ _ _ p q _
  case t1280 =>
    refine tile_piece x0 x1 x2 x3 x4 1280 inb_S64x4096_S64x256_0_1280 _ (by decide) fun p q => ?_
    unfold k0_pay12
    exact piece_apply a1 h1 a2 h2 a3 h3 a4 h4 a5 h5 x0 x1 x2 x3 x4 1280 _ _ _ _ p q _
  case t1024 =>
    refine tile_piece x0 x1 x2 x3 x4 1024 inb_S64x4096_S64x256_0_1024 _ (by decide) fun p q => ?_
    unfold k0_pay11
    exact piece_apply a1 h1 a2 h2 a3 h3 a4 h4 a5 h5 x0 x1 x2 x3 x4 1024 _ _ _ _ p q _
  case t768 =>
    refine tile_piece x0 x1 x2 x3 x4 768 inb_S64x4096_S64x256_0_768 _ (by decide) fun p q => ?_
    unfold k0_pay10
    exact piece_apply a1 h1 a2 h2 a3 h3 a4 h4 a5 h5 x0 x1 x2 x3 x4 768 _ _ _ _ p q _
  case t512 =>
    refine tile_piece x0 x1 x2 x3 x4 512 inb_S64x4096_S64x256_0_512 _ (by decide) fun p q => ?_
    unfold k0_pay9 k0_pay7 k0_pay8
    exact piece_apply a1 h1 a2 h2 a3 h3 a4 h4 a5 h5 x0 x1 x2 x3 x4 512 _ _ _ _ p q _
  case t256 =>
    refine tile_piece x0 x1 x2 x3 x4 256 inb_S64x4096_S64x256_0_256 _ (by decide) fun p q => ?_
    unfold k0_pay6
    exact piece_apply a1 h1 a2 h2 a3 h3 a4 h4 a5 h5 x0 x1 x2 x3 x4 256 _ _ _ _ p q _
  case t0 =>
    refine tile_piece x0 x1 x2 x3 x4 0 inb_S64x4096_S64x256_0_0 _ (by decide) fun p q => ?_
    unfold k0_pay5
    exact piece_apply a1 h1 a2 h2 a3 h3 a4 h4 a5 h5 x0 x1 x2 x3 x4 0 _ _ _ _ p q _

/-- The sixteen stores tile the buffer: every index lies in one of them. -/
theorem pieces_cover (c : Dev nD) (a1 : Memref sig .tc .vmem S64x4096 .f32) (h1 : a1.IsWhole) (a2 : Memref sig .tc .vmem S4096x4096 .bf16) (h2 : a2.IsWhole)
    (a3 : Memref sig .tc .vmem S1x4096 .f32) (h3 : a3.IsWhole) (a4 : Memref sig .tc .vmem S1x4096 .f32) (h4 : a4.IsWhole)
    (a5 : Memref sig .tc .vmem S1x4096 .f32) (h5 : a5.IsWhole)
    (x0 : Vec Ideal S64x4096 .f32) (x1 : Vec Ideal S4096x4096 .bf16) (x2 x3 x4 : Vec Ideal S1x4096 .f32) :
    ∀ y : S64x4096.Idx, ∃ pc ∈ kernelRun0_A.sl.H7_16 (F := Ideal) c a1 h1 a2 h2 a3 h3 a4 h4 a5 h5 x0 x1 x2 x3 x4, y ∈ pc.1.set :=
  View.cover_of_tiledL (kernelRun0_A.sl.H7_16 (F := Ideal) c a1 h1 a2 h2 a3 h3 a4 h4 a5 h5 x0 x1 x2 x3 x4) ![64, 256] (by sl_kernel_rfl)

/-- So after the sixteen stores the buffer holds the block function. -/
theorem buffer_eq (c : Dev nD) (a1 : Memref sig .tc .vmem S64x4096 .f32) (h1 : a1.IsWhole) (a2 : Memref sig .tc .vmem S4096x4096 .bf16) (h2 : a2.IsWhole)
    (a3 : Memref sig .tc .vmem S1x4096 .f32) (h3 : a3.IsWhole) (a4 : Memref sig .tc .vmem S1x4096 .f32) (h4 : a4.IsWhole)
    (a5 : Memref sig .tc .vmem S1x4096 .f32) (h5 : a5.IsWhole)
    (x0 : Vec Ideal S64x4096 .f32) (x1 : Vec Ideal S4096x4096 .bf16) (x2 x3 x4 : Vec Ideal S1x4096 .f32) :
    View.canon (kernelRun0_A.sl.H7_16 (F := Ideal) c a1 h1 a2 h2 a3 h3 a4 h4 a5 h5 x0 x1 x2 x3 x4) = preBlock x0 x1 x2 x3 x4 :=
  funext fun y => View.canon_apply_of_pieces (preBlock x0 x1 x2 x3 x4) _
    (pieces_eq c a1 h1 a2 h2 a3 h3 a4 h4 a5 h5 x0 x1 x2 x3 x4) y (pieces_cover c a1 h1 a2 h2 a3 h3 a4 h4 a5 h5 x0 x1 x2 x3 x4 y)

/-- What the body leaves in the output buffer: the normalization pass (centred values, the reciprocal root of the
    variance plus the constant, gamma and beta) applied to the block function it read back. -/
theorem block_pre (c : Dev nD) (i : grid0.Coords) (a1 : Memref sig .tc .vmem S64x4096 .f32) (h1 : a1.IsWhole) (a2 : Memref sig .tc .vmem S4096x4096 .bf16) (h2 : a2.IsWhole)
    (a3 : Memref sig .tc .vmem S1x4096 .f32) (h3 : a3.IsWhole) (a4 : Memref sig .tc .vmem S1x4096 .f32) (h4 : a4.IsWhole)
    (a5 : Memref sig .tc .vmem S1x4096 .f32) (h5 : a5.IsWhole)
    (a6 : Memref sig .tc .vmem S1x4096 .f32) (h6 : a6.IsWhole) (a7 : Memref sig .tc .vmem S1x4096 .f32) (h7 : a7.IsWhole)
    (a8 : Memref sig .tc .vmem S64x4096 .f32) (h8 : a8.IsWhole)
    (x0 : Vec Ideal S64x4096 .f32) (x1 : Vec Ideal S4096x4096 .bf16) (x2 x3 x4 x5 x6 : Vec Ideal S1x4096 .f32) :
    out0_A_7 (F := Ideal) c i a1 h1 a2 h2 a3 h3 a4 h4 a5 h5 a6 h6 a7 h7 a8 h8 x0 x1 x2 x3 x4 x5 x6
      = k0_pay1 (F := Ideal) (k0_pay26 (F := Ideal) (preBlock x0 x1 x2 x3 x4)) (k0_pay27 (F := Ideal) (preBlock x0 x1 x2 x3 x4)) x5 x6 := by
  unfold out0_A_7
  rw [View.read_writes_eq_canon _ _ _ (cover0_A_7 c i a1 h1 a2 h2 a3 h3 a4 h4 a5 h5 a6 h6 a7 h7 a8 h8 x0 x1 x2 x3 x4 x5 x6)]
  unfold kernelRun0_A
  dsimp only
  rw [View.canon_cons_unit_zero (S := S64x4096) hz]
  unfold kernelRun0_A.sl.r_7 kernelRun0_A.sl.r_8 kernelRun0_A.sl.v171
  rw [View.readCov_eq_canon_ld _ _ _ (pieces_cover c a1 h1 a2 h2 a3 h3 a4 h4 a5 h5 x0 x1 x2 x3 x4), View.ld_unit_zero (S := S64x4096) hz, buffer_eq]
  simp only [View.readAt_eq_ld, h6.read_unread, h7.read_unread, View.ld_unit_zero (S := S1x4096) hz]

end Cert.KernelIdeal.KValue

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.KNorm.lean ====
/-
  The kernel's normalization pass, read at an index.

  For a block of 64 rows of 4096 channel values: the row sum divided by 4096 is the row's mean; the block minus
  the mean is the centred block; the row sum of the centred squares divided by 4096, plus a small constant, is
  the shifted variance; the centred value times the reciprocal square root of the shifted variance, scaled by
  gamma and shifted by beta, is the layer normalization of the row.
-/
import proofs.«163807_j17214228922556_2_alg».proof.Proof.Gen.KernelIdeal.Skeleton
import proofs.«163807_j17214228922556_2_alg».proof.Proof.Spec
import proofs.«163807_j17214228922556_2_alg».proof.Proof.LibColumnCast
import proofs.«163807_j17214228922556_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KNorm

open Idealize.ShloMosaic Idealize.ShloMosaic.TcCoe Idealize.SL.Sem Idealize.ShloMosaic.ValueIdx
  Cert.KernelIdeal Cert.KernelIdeal.Gen

/-- The index with coordinate k inserted on the summed axis of row p is (p, k). -/
theorem lift_row (p : Fin 64) (k : Fin 4096) :
    reduces_S64x4096_S64.lift (ix1 p) k = ix2 p k :=
  funext fun d => Fin.ext (by match d with | ⟨0, _⟩ => rfl | ⟨1, _⟩ => rfl)

/-- The sum over the channel axis, at row p, is the sum of the row's 4096 entries. -/
theorem rowSum_apply (V : FVec Ideal S64x4096 .f32) (hφ : FKind.Formats .f32)
    (hacc : (0x00000000#32 : BitVec 32) = FKind.add.neutral .f32 hφ) (p : Fin 64) :
    multiReduction (F := Ideal) .add [1] S64 V 0x00000000#32 reduces_S64x4096_S64 hφ hacc (ix1 p)
      = ∑ k : Fin 4096, V (ix2 p k) := by
  refine (Ideal.multiReduction_add_single V _ reduces_S64x4096_S64 hφ hacc (ix1 p)).trans ?_
  show ∑ k : Fin 4096, V (reduces_S64x4096_S64.lift (ix1 p) k) = _
  simp only [lift_row]

/-- The row sum divided by 4096, at row p, is the mean of row p. -/
theorem mean_apply (Yv : Vec Ideal S64x4096 .f32) (p : Fin 64) (u : Fin 1) :
    k0_pay25 (F := Ideal) Yv (ix2 p u) = Cert.Spec.mean (fun o => Yv (ix2 p o)) := by
  unfold k0_pay25 k0_pay24
  dsimp only
  rw [divf_apply, broadcast_apply, Cert.LibColumnCast.shapeCast_a_a1_apply, Ideal.ofBits_def]
  refine (congrArg (fun s => Ideal.div s (Ideal.ofBits .f32 0x45800000#32)) (rowSum_apply _ _ _ p)).trans ?_
  simp only [shapeCast_self]
  rfl

/-- The block minus its row mean, at (p, j), is the centred value. -/
theorem centred_apply (Yv : Vec Ideal S64x4096 .f32) (p : Fin 64) (j : Fin 4096) :
    k0_pay26 (F := Ideal) Yv (ix2 p j) = Yv (ix2 p j) - Cert.Spec.mean (fun o => Yv (ix2 p o)) := by
  unfold k0_pay26 k0_pay24
  dsimp only
  simp only [subf_apply, Cert.LibColumnBroadcast.broadcastTo_a1_ab_apply, mean_apply, shapeCast_self]

/-- The row sum of the centred squares divided by 4096, plus the small constant, at row p. -/
theorem var_apply (Yv : Vec Ideal S64x4096 .f32) (p : Fin 64) (u : Fin 1) :
    k0_pay27 (F := Ideal) Yv (ix2 p u)
      = Cert.Spec.mean (fun o =>
          (Yv (ix2 p o) - Cert.Spec.mean (fun o => Yv (ix2 p o)))
            * (Yv (ix2 p o) - Cert.Spec.mean (fun o => Yv (ix2 p o))))
        + Ideal.ofBits .f32 0x3727C5AC#32 := by
  unfold k0_pay27 k0_pay24
  dsimp only
  simp only [addf_apply, divf_apply, broadcast_apply, Cert.LibColumnCast.shapeCast_a_a1_apply, Ideal.ofBits_def]
  refine (congrArg (fun s => Ideal.div s (Ideal.ofBits .f32 0x45800000#32) + Ideal.ofBits .f32 0x3727C5AC#32)
    (rowSum_apply _ _ _ p)).trans ?_
  simp only [mulf_apply, subf_apply, Cert.LibColumnBroadcast.broadcastTo_a1_ab_apply, mean_apply, shapeCast_self]
  rfl

/-- The vector reciprocal square root at an index is the reciprocal square root of the entry. -/
theorem rsqrt_apply (x : FVec Ideal S64x1 .f32) (i : S64x1.Idx) :
    Idealize.ShloMosaic.rsqrt x i = Ideal.rsqrt (x i) := rfl

/-- The normalization pass at (p, j) is the layer normalization of row p at channel j. -/
theorem ln_apply (Yv : Vec Ideal S64x4096 .f32) (g5 g6 : Vec Ideal S1x4096 .f32) (p : Fin 64) (j : Fin 4096) :
    k0_pay1 (F := Ideal) (k0_pay26 (F := Ideal) Yv) (k0_pay27 (F := Ideal) Yv) g5 g6 (ix2 p j)
      = Cert.Spec.layerNorm (fun o => Yv (ix2 p o)) (fun o => g5 (ix2 (0 : Fin 1) o))
          (fun o => g6 (ix2 (0 : Fin 1) o)) j := by
  unfold k0_pay1
  simp only [addf_apply, mulf_apply, Cert.LibColumnBroadcast.broadcastTo_a1_ab_apply, broadcastTo_1b_ab_apply,
    shapeCast_self, centred_apply, rsqrt_apply, var_apply]
  rfl

end Cert.KernelIdeal.KNorm

end
-- ==== Proof.KArray.lean ====
/-
  From the kernel's blocks to its result array.

  Grid point t stages rows 64t … 64t + 63 of the [16384, 4096] activations and the whole of the sign
  matrix and of the five rows, and writes back rows 64t … 64t + 63 of the output; the 256 points' blocks
  tile the output.  So the output array ends holding, at (r, o), channel o of the normalized affine
  image of row r.
-/
import proofs.«163807_j17214228922556_2_alg».proof.Proof.Gen.KernelIdeal.Frame
import proofs.«163807_j17214228922556_2_alg».proof.Proof.Spec
import proofs.«163807_j17214228922556_2_alg».proof.Proof.KBlock
import proofs.«163807_j17214228922556_2_alg».proof.Proof.KNorm
import Idealize.ShloMosaic.Lib.StableHlo.Run
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.KValue

open Cert.KernelIdeal Cert.KernelIdeal.Gen

variable (m : (ℓ : Loc nD τ sig) → Buf (Elt Ideal) ℓ) (ρ : Dev nD → PrngReg)

/-- The printed index maps over the grid: the activations' and the output's block index is (t, 0), every other
    window's (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 256 := lt_of_lt_of_eq t.isLt N_0

/-- Row r of the output before normalization, from the staged arrays. -/
def arrRow (X : Vec Ideal S16384x4096 .f32) (x1 : Vec Ideal S4096x4096 .bf16) (x2 x3 x4 : Vec Ideal S1x4096 .f32)
    (r : Fin 16384) (j : Fin 4096) : EReal :=
  ((∑ k : Fin 4096, X (ix2 r k) * x2 (ix2 (0 : Fin 1) k) * x1 (ix2 j k)) + x4 (ix2 (0 : Fin 1) j)) * x3 (ix2 (0 : Fin 1) j)

/-- The output array as one function of the staged arrays: the normalization of each row. -/
def GK (X : Vec Ideal S16384x4096 .f32) (x1 : Vec Ideal S4096x4096 .bf16) (x2 x3 x4 x5 x6 : Vec Ideal S1x4096 .f32) :
    Vec Ideal S16384x4096 .f32 :=
  fun i => Cert.Spec.layerNorm (fun o => arrRow X x1 x2 x3 x4 ⟨(i 0).val, idx2_lt0 i⟩ o)
    (fun o => x5 (ix2 (0 : Fin 1) o)) (fun o => x6 (ix2 (0 : Fin 1) o)) ⟨(i 1).val, idx2_lt1 i⟩

theorem GK_at (X : Vec Ideal S16384x4096 .f32) (x1 : Vec Ideal S4096x4096 .bf16) (x2 x3 x4 x5 x6 : Vec Ideal S1x4096 .f32)
    (i : S16384x4096.Idx) (r : Fin 16384) (j : Fin 4096) (h0 : (i 0).val = r.val) (h1 : (i 1).val = j.val) :
    GK X x1 x2 x3 x4 x5 x6 i = Cert.Spec.layerNorm (fun o => arrRow X x1 x2 x3 x4 r o)
      (fun o => x5 (ix2 (0 : Fin 1) o)) (fun o => x6 (ix2 (0 : Fin 1) o)) j := by
  obtain rfl : i = ix2 r j := funext fun a => Fin.ext (by match a with | ⟨0, _⟩ => exact h0 | ⟨1, _⟩ => exact h1)
  rfl

/-- The activations' block at point t is rows 64t … of the staged array. -/
theorem iblk0_apply (c : Dev nD) (t : Fin cfg0.N) (p : Fin 64) (k : Fin 4096) (h : t.val * 64 + p.val < 16384) :
    (iblk m c 0 t : Vec Ideal S64x4096 .f32) (ix2 p k) = (V m c main_v0 : Vec Ideal S16384x4096 .f32) (ix2 ⟨t.val * 64 + p.val, h⟩ k) := by
  unfold iblk
  rw [View.read_apply]
  show V m c main_v0 _ = V m c main_v0 _
  refine congrArg (V m c main_v0) (funext fun a => Fin.ext ?_)
  match a with
  | ⟨0, _⟩ => show win0_0.index t 0 * 64 + 1 * p.val = t.val * 64 + p.val; rw [(idx_facts t).1]; omega
  | ⟨1, _⟩ => show win0_0.index t 1 * 4096 + 1 * k.val = k.val; rw [(idx_facts t).2.1]; omega

/-- Every other input window's block, at any point, is its whole staged array. -/
theorem iblk1_eq (c : Dev nD) (t : Fin cfg0.N) : (iblk m c 1 t : Vec Ideal S4096x4096 .bf16) = V m c main_v2 := by
  funext j
  unfold iblk
  rw [View.read_apply]
  show V m c main_v2 _ = V m c main_v2 j
  refine congrArg (V m c main_v2) (funext fun a => Fin.ext ?_)
  match a with
  | ⟨0, _⟩ => show win0_1.index t 0 * 4096 + 1 * (j 0).val = (j 0).val; rw [(idx_facts t).2.2.1]; omega
  | ⟨1, _⟩ => show win0_1.index t 1 * 4096 + 1 * (j 1).val = (j 1).val; rw [(idx_facts t).2.2.2.1]; omega

theorem iblk2_eq (c : Dev nD) (t : Fin cfg0.N) : (iblk m c 2 t : Vec Ideal S1x4096 .f32) = V m c main_v3 := by
  funext j
  unfold iblk
  rw [View.read_apply]
  show V m c main_v3 _ = V m c main_v3 j
  refine congrArg (V m c main_v3) (funext fun a => Fin.ext ?_)
  match a with
  | ⟨0, _⟩ => show win0_2.index t 0 * 1 + 1 * (j 0).val = (j 0).val; rw [(idx_facts t).2.2.2.2.1]; omega
  | ⟨1, _⟩ => show win0_2.index t 1 * 4096 + 1 * (j 1).val = (j 1).val; rw [(idx_facts t).2.2.2.2.2.1]; omega

theorem iblk3_eq (c : Dev nD) (t : Fin cfg0.N) : (iblk m c 3 t : Vec Ideal S1x4096 .f32) = V m c main_v4 := by
  funext j
  unfold iblk
  rw [View.read_apply]
  show V m c main_v4 _ = V m c main_v4 j
  refine congrArg (V m c main_v4) (funext fun a => Fin.ext ?_)
  match a with
  | ⟨0, _⟩ => show win0_3.index t 0 * 1 + 1 * (j 0).val = (j 0).val; rw [(idx_facts t).2.2.2.2.2.2.1]; omega
  | ⟨1, _⟩ => show win0_3.index t 1 * 4096 + 1 * (j 1).val = (j 1).val; rw [(idx_facts t).2.2.2.2.2.2.2.1]; omega

theorem iblk4_eq (c : Dev nD) (t : Fin cfg0.N) : (iblk m c 4 t : Vec Ideal S1x4096 .f32) = V m c main_v5 := by
  funext j
  unfold iblk
  rw [View.read_apply]
  show V m c main_v5 _ = V m c main_v5 j
  refine congrArg (V m c main_v5) (funext fun a => Fin.ext ?_)
  match a with
  | ⟨0, _⟩ => show win0_4.index t 0 * 1 + 1 * (j 0).val = (j 0).val; rw [(idx_facts t).2.2.2.2.2.2.2.2.1]; omega
  | ⟨1, _⟩ => show win0_4.index t 1 * 4096 + 1 * (j 1).val = (j 1).val; rw [(idx_facts t).2.2.2.2.2.2.2.2.2.1]; omega

theorem iblk5_eq (c : Dev nD) (t : Fin cfg0.N) : (iblk m c 5 t : Vec Ideal S1x4096 .f32) = V m c main_v6 := by
  funext j
  unfold iblk
  rw [View.read_apply]
  show V m c main_v6 _ = V m c main_v6 j
  refine congrArg (V m c main_v6) (funext fun a => Fin.ext ?_)
  match a with
  | ⟨0, _⟩ => show win0_5.index t 0 * 1 + 1 * (j 0).val = (j 0).val; rw [(idx_facts t).2.2.2.2.2.2.2.2.2.2.1]; omega
  | ⟨1, _⟩ => show win0_5.index t 1 * 4096 + 1 * (j 1).val = (j 1).val; rw [(idx_facts t).2.2.2.2.2.2.2.2.2.2.2.1]; omega

theorem iblk6_eq (c : Dev nD) (t : Fin cfg0.N) : (iblk m c 6 t : Vec Ideal S1x4096 .f32) = V m c main_v7 := by
  funext j
  unfold iblk
  rw [View.read_apply]
  show V m c main_v7 _ = V m c main_v7 j
  refine congrArg (V m c main_v7) (funext fun a => Fin.ext ?_)
  match a with
  | ⟨0, _⟩ => show win0_6.index t 0 * 1 + 1 * (j 0).val = (j 0).val; rw [(idx_facts t).2.2.2.2.2.2.2.2.2.2.2.2.1]; omega
  | ⟨1, _⟩ => show win0_6.index t 1 * 4096 + 1 * (j 1).val = (j 1).val; rw [(idx_facts t).2.2.2.2.2.2.2.2.2.2.2.2.2.1]; omega

/-- What point t writes back is block t of the output function of the staged arrays. -/
theorem flushed_eq (c : Dev nD) (t : Fin cfg0.N) :
    (dats m 0 c).flushed 7 t = ((cfg0.win 7).blk t).view.read (Elt Ideal) (GK (V m c main_v0) (V m c main_v2) (V m c main_v3) (V m c main_v4) (V m c main_v5) (V m c main_v6) (V m c main_v7)) := by
  show (cfg0.win 7).cut (grid0.coords t) ((dats m 0 c).after 7 t) = _
  rw [after0_7]
  unfold outsAt0
  rw [block_pre]
  funext j
  obtain ⟨p, q, rfl⟩ : ∃ (p : Fin 64) (q : Fin 4096), j = ix2 p q := ⟨j 0, j 1, eq_ix2 j⟩
  have ht := t_lt t
  have hr : t.val * 64 + p.val < 16384 := by have := p.isLt; omega
  rw [View.read_apply]
  refine (Cert.KernelIdeal.KNorm.ln_apply _ _ _ p q).trans ?_
  refine Eq.trans ?_ (GK_at (V m c main_v0) (V m c main_v2) (V m c main_v3) (V m c main_v4) (V m c main_v5) (V m c main_v6) (V m c main_v7) _ ⟨t.val * 64 + p.val, hr⟩ q ?_ ?_).symm
  · rw [iblk1_eq, iblk2_eq, iblk3_eq, iblk4_eq, iblk5_eq, iblk6_eq]
    refine congrArg (fun y => Cert.Spec.layerNorm y _ _ q) (funext fun o => ?_)
    rw [preBlock_apply]
    unfold preRow arrRow
    refine congrArg (fun s => (s + _) * _) (Finset.sum_congr rfl fun k _ => ?_)
    rw [iblk0_apply m c t p k hr]
  · show win0_7.index t 0 * 64 + 1 * p.val = t.val * 64 + p.val
    rw [(idx_facts t).2.2.2.2.2.2.2.2.2.2.2.2.2.2.1]; omega
  · show win0_7.index t 1 * 4096 + 1 * q.val = q.val
    rw [(idx_facts t).2.2.2.2.2.2.2.2.2.2.2.2.2.2.2]; omega

/-- An index of the output array is in point t's block iff each coordinate is in the block's range on its axis. -/
theorem mem_blk (t : Fin cfg0.N) (i : S16384x4096.Idx) :
    i ∈ ((cfg0.win 7).blk t).view.set ↔ ∀ a : Fin 2, win0_7.index t a * S64x4096.size a ≤ (i a).val ∧ (i a).val < win0_7.index t a * S64x4096.size a + S64x4096.size a := by
  show i ∈ ((View.whole main_v8).slice (win0_7.rect t)).set ↔ _
  rw [View.set_slice_whole, Rect.mem_set_unit]
  exact Iff.rfl

/-- Row r of the output lies in the block of point r / 64. -/
theorem cover (i : S16384x4096.Idx) : ∃ t : Fin cfg0.N, (cfg0.win 7).flush t = true ∧ i ∈ ((cfg0.win 7).blk t).view.set := by
  have hi0 : (i 0).val < 16384 := (i 0).isLt
  have hi1 : (i 1).val < 4096 := (i 1).isLt
  have hN : cfg0.N = 256 := N_0
  let t : Fin cfg0.N := ⟨(i 0).val / 64, by rw [hN]; omega⟩
  refine ⟨t, flush0_7 t, ?_⟩
  rw [mem_blk]
  have e0 : win0_7.index t (0 : Fin 2) = (i 0).val / 64 := (idx_facts t).2.2.2.2.2.2.2.2.2.2.2.2.2.2.1
  have e1 : win0_7.index t (1 : Fin 2) = 0 := (idx_facts t).2.2.2.2.2.2.2.2.2.2.2.2.2.2.2
  intro a
  match a with
  | ⟨0, _⟩ => show win0_7.index t (0 : Fin 2) * 64 ≤ (i 0).val ∧ (i 0).val < win0_7.index t (0 : Fin 2) * 64 + 64; omega
  | ⟨1, _⟩ => show win0_7.index t (1 : Fin 2) * 4096 ≤ (i 1).val ∧ (i 1).val < win0_7.index t (1 : Fin 2) * 4096 + 4096; omega

/-- The output array after the run. -/
theorem final (c : Dev nD) : (dats m 0 c).arrAt 7 cfg0.N = GK (V m c main_v0) (V m c main_v2) (V m c main_v3) (V m c main_v4) (V m c main_v5) (V m c main_v6) (V m c main_v7) :=
  (dats m 0 c).arrAt_eq_of_cover 7 (GK (V m c main_v0) (V m c main_v2) (V m c main_v3) (V m c main_v4) (V m c main_v5) (V m c main_v6) (V m c main_v7)) (fun t _ => flushed_eq m c t) cover

end Cert.KernelIdeal.KValue

end
-- ==== Proof.KResult.lean ====
/-
  The kernel's result as the specification of the argument arrays.

  Before the call the host reshapes x [4, 4096, 4096] to [16384, 4096] (row 4096·a + r is row (a, r)), takes
  the sign of the weights (the change of float format after it is the identity on exact values) and reshapes
  the five vectors to rows; after the call it reshapes the output back to [4, 4096, 4096].  So the result at
  (a, r, o) is channel o of the normalized affine image of row (a, r) of x.
-/
import proofs.«163807_j17214228922556_2_alg».proof.Proof.Gen.KernelIdeal.Frame
import proofs.«163807_j17214228922556_2_alg».proof.Proof.Spec
import proofs.«163807_j17214228922556_2_alg».proof.Proof.KArray
import Idealize.ShloMosaic.Lib.StableHlo.Run
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.KValue

open Cert.KernelIdeal Cert.KernelIdeal.Gen

variable (m : (ℓ : Loc nD τ sig) → Buf (Elt Ideal) ℓ) (ρ : Dev nD → PrngReg)

/-! ## What the host operations before the call leave in the staged arrays -/

theorem V_v0 (c : Dev nD) : (V m c main_v0 : Vec Ideal S16384x4096 .f32)
    = shapeCast S16384x4096 (m ((c : Thread nD τ).loc main_arg0)) shapeCasts_S4x4096x4096_S16384x4096 := by
  show StableHlo.after hostOps0 (fun b => m (c, b)) (Proc.devRef .tc main_v0) = _
  after_results
  rfl

theorem V_v2 (c : Dev nD) : (V m c main_v2 : Vec Ideal S4096x4096 .bf16)
    = truncf .bf16 (Host.sign (F := Ideal) (m ((c : Thread nD τ).loc main_arg1))) bitsLt_bf16_f32 := by
  show StableHlo.after hostOps0 (fun b => m (c, b)) (Proc.devRef .tc main_v2) = _
  after_results

theorem V_v3 (c : Dev nD) : (V m c main_v3 : Vec Ideal S1x4096 .f32)
    = shapeCast S1x4096 (m ((c : Thread nD τ).loc main_arg3)) shapeCasts_S4096_S1x4096 := by
  show StableHlo.after hostOps0 (fun b => m (c, b)) (Proc.devRef .tc main_v3) = _
  after_results
  rfl

theorem V_v4 (c : Dev nD) : (V m c main_v4 : Vec Ideal S1x4096 .f32)
    = shapeCast S1x4096 (m ((c : Thread nD τ).loc main_arg4)) shapeCasts_S4096_S1x4096 := by
  show StableHlo.after hostOps0 (fun b => m (c, b)) (Proc.devRef .tc main_v4) = _
  after_results
  rfl

theorem V_v5 (c : Dev nD) : (V m c main_v5 : Vec Ideal S1x4096 .f32)
    = shapeCast S1x4096 (m ((c : Thread nD τ).loc main_arg2)) shapeCasts_S4096_S1x4096 := by
  show StableHlo.after hostOps0 (fun b => m (c, b)) (Proc.devRef .tc main_v5) = _
  after_results
  rfl

theorem V_v6 (c : Dev nD) : (V m c main_v6 : Vec Ideal S1x4096 .f32)
    = shapeCast S1x4096 (m ((c : Thread nD τ).loc main_arg5)) shapeCasts_S4096_S1x4096 := by
  show StableHlo.after hostOps0 (fun b => m (c, b)) (Proc.devRef .tc main_v6) = _
  after_results
  rfl

theorem V_v7 (c : Dev nD) : (V m c main_v7 : Vec Ideal S1x4096 .f32)
    = shapeCast S1x4096 (m ((c : Thread nD τ).loc main_arg6)) shapeCasts_S4096_S1x4096 := by
  show StableHlo.after hostOps0 (fun b => m (c, b)) (Proc.devRef .tc main_v7) = _
  after_results
  rfl

/-! ## The reshape after the call -/

theorem tail_eq (c : Dev nD) :
    (Pipeline.afterTail₀ cfgs (dats m) 0 (V0 m) [hostOps1] c main_v9 : S4x4096x4096.Idx → EReal)
      = shapeCast S4x4096x4096 (GK (V m c main_v0) (V m c main_v2) (V m c main_v3) (V m c main_v4) (V m c main_v5) (V m c main_v6) (V m c main_v7)) shapeCasts_S16384x4096_S4x4096x4096 := by
  unfold Pipeline.afterTail₀
  show StableHlo.after hostOps1 _ (Proc.devRef .tc main_v9) = _
  after_results
  have e := (Pipeline.withArrays_arr spec0 launch0.win.arr_inj c (V0 m c) (fun w => (dats m 0 c).arrAt w (cfgs 0).N) 7).trans (final m c)
  rw [e]
  rfl

/-! ## The result is the specification -/

/-- A [4096] vector reshaped to a row, at (0, k). -/
theorem row_apply (v : (⟨1, ![4096]⟩ : Shape).Idx → EReal) (h : S4096.ShapeCasts S1x4096) (k : Fin 4096) :
    shapeCast S1x4096 v h (ix2 (0 : Fin 1) k) = v (ix1 k) :=
  shapeCast_a_1a_apply v h 0 k

/-- Row 4096·a + r of the reshaped activations is row (a, r) of x. -/
theorem x_apply (x : S4x4096x4096.Idx → EReal) (h : S4x4096x4096.ShapeCasts S16384x4096) (a : Fin 4) (r k : Fin 4096)
    (hr : a.val * 4096 + r.val < 16384) :
    shapeCast S16384x4096 x h (ix2 (⟨a.val * 4096 + r.val, hr⟩ : Fin 16384) k) = x (ix3 a r k) :=
  shapeCast_apply x h _ _ (by rw [Shape.rowMajor_val_two, Shape.rowMajor_val_three]; rfl)

theorem layerNorm_congr {y y' γ γ' β β' : Fin 4096 → EReal} (hy : y = y') (hγ : γ = γ') (hβ : β = β') (o : Fin 4096) :
    Cert.Spec.layerNorm y γ β o = Cert.Spec.layerNorm y' γ' β' o := by subst hy hγ hβ; rfl

theorem result_eq (c : Dev nD) :
    shapeCast S4x4096x4096 (GK (V m c main_v0) (V m c main_v2) (V m c main_v3) (V m c main_v4) (V m c main_v5) (V m c main_v6) (V m c main_v7)) shapeCasts_S16384x4096_S4x4096x4096
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨a, r, o, rfl⟩ : ∃ (a : Fin 4) (r o : Fin 4096), i = ix3 a r o := ⟨i 0, i 1, i 2, eq_ix3 i⟩
  have hr : a.val * 4096 + r.val < 16384 := by have := a.isLt; have := r.isLt; omega
  refine (shapeCast_apply _ shapeCasts_S16384x4096_S4x4096x4096 (ix3 a r o) (ix2 (⟨a.val * 4096 + r.val, hr⟩ : Fin 16384) o)
    (by rw [Shape.rowMajor_val_two, Shape.rowMajor_val_three]; rfl)).trans ?_
  rw [GK_at _ _ _ _ _ _ _ _ ⟨a.val * 4096 + r.val, hr⟩ o rfl rfl]
  unfold Cert.Spec.G
  rw [V_v0, V_v2, V_v3, V_v4, V_v5, V_v6, V_v7]
  refine layerNorm_congr (funext fun o' => ?_) (funext fun o' => row_apply _ _ o') (funext fun o' => row_apply _ _ o') o
  unfold arrRow Cert.Spec.affine
  rw [row_apply, row_apply]
  refine congrArg (fun s => (s + _) * _) (Finset.sum_congr rfl fun k _ => ?_)
  rw [x_apply _ _ a r k hr, row_apply, truncf_apply]
  rfl

/-! ## The run, read -/

/-- Every weakly fair execution of the kernel's program terminates with the result at the specification of the
    argument arrays, and the argument arrays unchanged. -/
theorem run : θ_run defs (onTc (τ := τ) (main (F := Ideal))) ⟨m, fun _ => 0, ρ⟩ fun r => ∀ c : Dev nD,
      r.2.mem ((c : Thread nD τ).loc main_v9) = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3))
      ∧ r.2.mem ((c : Thread nD τ).loc main_arg4) = (m ((c : Thread nD τ).loc main_arg4))
      ∧ r.2.mem ((c : Thread nD τ).loc main_arg5) = (m ((c : Thread nD τ).loc main_arg5))
      ∧ r.2.mem ((c : Thread nD τ).loc main_arg6) = (m ((c : Thread nD τ).loc main_arg6)) :=
  (θ_run defs _ _).mono (fun _ h c => ⟨((h c).2 main_v9 (Pipeline.mem_restRefs_of main_v9 (by decide) (by decide))).trans ((tail_eq m c).trans (result_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.KValue

end
-- ==== Proof.lean ====
/-
  The five claims of this certificate.

  The kernel and the reference compute one function of the seven argument arrays (Proof/Spec.lean): for every row
  (a, r) of x, the 4096 channels ((Σ_k x_k · g_k · sign(w_{o,k})) + bias_o) · h_o, normalized over the channel axis
  (mean subtracted, multiplied by the reciprocal square root of the mean centred square plus a constant, scaled by
  gamma, shifted by beta).  Both programs apply the same exact operations in the same order to each entry; they
  differ only in arrangement: the kernel walks 256 blocks of 64 rows, builds each row in sixteen groups of 256
  channels and reshapes before and after, where the reference contracts, broadcasts and reduces whole arrays.
  No law of arithmetic beyond reading each side index by index is needed, so the precondition is never opened.

  Frames: the two kernel programs' are the generated frame runs; the reference's is its generated run with the
  result dropped.  The idealization rewrote nothing, so it is preserved trivially.  The algebraic claim puts the
  kernel's run (Proof/KResult.lean) beside the reference's (its generated run, read in Proof/RefSpec.lean), both
  at the specification of arguments that agree.
-/
import proofs.«163807_j17214228922556_2_alg».proof.Defs
import proofs.«163807_j17214228922556_2_alg».proof.Proof.Gen.Kernel
import proofs.«163807_j17214228922556_2_alg».proof.Proof.Gen.Kernel.Skeleton
import proofs.«163807_j17214228922556_2_alg».proof.Proof.Gen.Kernel.Launch
import proofs.«163807_j17214228922556_2_alg».proof.Proof.Gen.Kernel.Points
import proofs.«163807_j17214228922556_2_alg».proof.Proof.Gen.Kernel.Frame
import proofs.«163807_j17214228922556_2_alg».proof.Proof.Gen.KernelIdeal
import proofs.«163807_j17214228922556_2_alg».proof.Proof.Gen.KernelIdeal.Skeleton
import proofs.«163807_j17214228922556_2_alg».proof.Proof.Gen.KernelIdeal.Launch
import proofs.«163807_j17214228922556_2_alg».proof.Proof.Gen.KernelIdeal.Points
import proofs.«163807_j17214228922556_2_alg».proof.Proof.Gen.KernelIdeal.Frame
import proofs.«163807_j17214228922556_2_alg».proof.Proof.Gen.ReferenceIdeal
import proofs.«163807_j17214228922556_2_alg».proof.Proof.Gen.Pre_finite_inputs
import proofs.«163807_j17214228922556_2_alg».proof.Proof.Gen.ReferenceIdeal.Run
import proofs.«163807_j17214228922556_2_alg».proof.Proof.Gen.ReferenceIdeal.Read
import proofs.«163807_j17214228922556_2_alg».proof.Proof.RefSpec
import proofs.«163807_j17214228922556_2_alg».proof.Proof.KResult
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the specification of the argument arrays, which agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v34_eq, Cert.RefSpec.ref_eq, (hagree c).1, (hagree c).2.1, (hagree c).2.2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
